-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel

variable [Facts]

def fn {F : FTy → Type} [FloatOps F] (main_arg0 : FVec F S4x4096x1024 .f32) (main_arg1 : FVec F S4x4096x1024 .f32) (main_arg2 : FVec F S4x4096x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4096x1024 .f32 := Host.absf main_arg1
  let main_cst_0 : FVec F S_ .f32 := constant S_ .f32 0x7F800000#32
  let main_v5 : FVec F S4x4096x1024 .f32 := broadcastInDim S4x4096x1024 ![] bcast_S_S4x4096x1024 main_cst_0
  let main_v6 : IVec S4x4096x1024 1 := cmpf .olt main_v4 main_v5
  let main_c_1 : IVec S_ 1 := constantI S_ 1 1#1
  let main_v7 : IVec S_ 1 := (fun x v => Host.reduce IntOp.andi x v reducesTo_S4x4096x1024_S_d0_1_2 h_S_) main_v6 main_c_1
  let main_v8 : IVec S_ 1 := andi main_v3 main_v7
  let main_v9 : FVec F S4x4096x1024 .f32 := Host.absf main_arg2
  let main_cst_2 : FVec F S_ .f32 := constant S_ .f32 0x7F800000#32
  let main_v10 : FVec F S4x4096x1024 .f32 := broadcastInDim S4x4096x1024 ![] bcast_S_S4x4096x1024 main_cst_2
  let main_v11 : IVec S4x4096x1024 1 := cmpf .olt main_v9 main_v10
  let main_c_3 : IVec S_ 1 := constantI S_ 1 1#1
  let main_v12 : IVec S_ 1 := (fun x v => Host.reduce IntOp.andi x v reducesTo_S4x4096x1024_S_d0_1_2 h_S_) main_v11 main_c_3
  let main_v13 : IVec S_ 1 := andi main_v8 main_v12
  main_v13
-- ==== Kernel.lean ====
abbrev S4x4096x1024 : Shape := ⟨3, ![4, 4096, 1024]⟩
abbrev S_ : Shape := ⟨0, ![]⟩
abbrev S4x4096 : Shape := ⟨2, ![4, 4096]⟩
abbrev S4x4096x1 : Shape := ⟨3, ![4, 4096, 1]⟩
abbrev S4x4096x4096 : Shape := ⟨3, ![4, 4096, 4096]⟩
abbrev S1x1024x1024 : Shape := ⟨3, ![1, 1024, 1024]⟩
abbrev S1x512x1024 : Shape := ⟨3, ![1, 512, 1024]⟩
abbrev S1x1024x512 : Shape := ⟨3, ![1, 1024, 512]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 28
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S4x4096x1024, .f32⟩
  | .hbm, ⟨12, _⟩ => ⟨S4x4096x1024, .f32⟩
  | .hbm, ⟨13, _⟩ => ⟨S4x4096x1024, .bf16⟩
  | .hbm, ⟨14, _⟩ => ⟨S4x4096x1024, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x1024, .f32⟩
  | .hbm, ⟨23, _⟩ => ⟨S4x4096x1024, .f32⟩
  | .hbm, ⟨24, _⟩ => ⟨S4x4096x1024, .bf16⟩
  | .hbm, ⟨25, _⟩ => ⟨S4x4096x1024, .bf16⟩
  | .hbm, ⟨26, _⟩ => ⟨S4x4096x1024, .f32⟩
  | .hbm, ⟨27, _⟩ => ⟨S4x4096x4096, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x1024x1024, .f32⟩
  | .local _ .vmem, ⟨7, _⟩ => ⟨S1x1024x1024, .f32⟩
  | .local _ .vmem, ⟨8, _⟩ => ⟨S1x1024x512, .f32⟩
  | .local _ .vmem, ⟨9, _⟩ => ⟨S1x1024x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19_0 : Ref sig .tc := ⟨.hbm, 26, rfl⟩
abbrev main_v19_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  reducesTo_S4x4096x1024_S4x4096_d2 : S4x4096x1024.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x1024_0_1_2 : S4x4096x1.BroadcastsInDim S4x4096x1024 (![0, 1, 2] : Fin 3 → Fin S4x4096x1024.rank)
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  transposes_S512x1024_p1_0_S1024x512 : S512x1024.Transposes [1, 0] S1024x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  shapeCasts_S1024x1024_S1x1024x1024 : S1024x1024.ShapeCasts S1x1024x1024
  dot_S1024x1024_S1024x512_S1024x512_1_0_0_1_n_n_wf : DotDims.WF S1024x1024 S1024x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x4096x1024.size a
  hwx0_0 : ∀ i : grid0.Coords, EltTy.bits .bf16 = 32 ∨ (Rect.block (s := S4x4096x1024) S1x1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S4x4096x1024.size a
  hwx0_1 : ∀ i : grid0.Coords, EltTy.bits .bf16 = 32 ∨ (Rect.block (s := S4x4096x1024) S1x512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S4x4096x1024.size a
  hwx0_2 : ∀ i : grid0.Coords, EltTy.bits .bf16 = 32 ∨ (Rect.block (s := S4x4096x1024) S1x512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S4x4096x1024.size a
  hwx0_3 : ∀ i : grid0.Coords, EltTy.bits .f32 = 32 ∨ (Rect.block (s := S4x4096x1024) S1x1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x512.size a ≤ S4x4096x4096.size a
  hwx0_4 : ∀ i : grid0.Coords, EltTy.bits .f32 = 32 ∨ (Rect.block (s := S4x4096x4096) S1x1024x512.size (cc0_transform_4 i) (hinb0_4 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v8) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19_0) S1x1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19_1) S1x1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S_ : Shape := ⟨0, ![]⟩
abbrev S4x4096 : Shape := ⟨2, ![4, 4096]⟩
abbrev S4x4096x1 : Shape := ⟨3, ![4, 4096, 1]⟩
abbrev S4x4096x4096 : Shape := ⟨3, ![4, 4096, 4096]⟩

abbrev nBuf : Space → Nat
  | .hbm => 25
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S4x4096x1024, .f32⟩
  | .hbm, ⟨12, _⟩ => ⟨S4x4096x1024, .f32⟩
  | .hbm, ⟨13, _⟩ => ⟨S4x4096x1024, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S4x4096x1024, .f32⟩
  | .hbm, ⟨22, _⟩ => ⟨S4x4096x1024, .f32⟩
  | .hbm, ⟨23, _⟩ => ⟨S4x4096x4096, .f32⟩
  | .hbm, ⟨24, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S4x4096x1024_S4x4096_d2 : S4x4096x1024.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x1024_0_1_2 : S4x4096x1.BroadcastsInDim S4x4096x1024 (![0, 1, 2] : Fin 3 → Fin S4x4096x1024.rank)
  dot_S4x4096x1024_S4x4096x1024_S4x4096x4096_2_2_1_1_0_0_wf : DotDims.WF S4x4096x1024 S4x4096x1024 S4x4096x4096 [2] [2] [1] [1] [0] [0]
  dot_S4x4096x4096_S4x4096x1024_S4x4096x1024_2_1_1_2_0_0_wf : DotDims.WF S4x4096x4096 S4x4096x1024 S4x4096x1024 [2] [1] [1] [2] [0] [0]

variable [Facts₀]

def dot_S4x4096x1024_S4x4096x1024_S4x4096x4096_2_2_1_1_0_0 : DotDims S4x4096x1024 S4x4096x1024 S4x4096x4096 where
  lhsContracting := [2]
  rhsContracting := [2]
  lhsNonContracting := [1]
  rhsNonContracting := [1]
  lhsBatch := [0]
  rhsBatch := [0]
  wf := dot_S4x4096x1024_S4x4096x1024_S4x4096x4096_2_2_1_1_0_0_wf
def dot_S4x4096x4096_S4x4096x1024_S4x4096x1024_2_1_1_2_0_0 : DotDims S4x4096x4096 S4x4096x1024 S4x4096x1024 where
  lhsContracting := [2]
  rhsContracting := [1]
  lhsNonContracting := [1]
  rhsNonContracting := [2]
  lhsBatch := [0]
  rhsBatch := [0]
  wf := dot_S4x4096x4096_S4x4096x1024_S4x4096x1024_2_1_1_2_0_0_wf

class Facts : Prop extends Facts₀ where

variable [Facts]
-- ==== Proof.Found.lean ====
import proofs.«142476_j69080253989708_2_alg».proof.Proof.Gen.KernelIdeal.Frame
import Idealize.ShloMosaic.Lib.Pipeline.Value
import Idealize.ShloMosaic.Lib.Tactic

/-!
  What one run of the body leaves in its two output buffers, as values.

  The body loads and stores whole buffers only. The weights buffer gets one covering store: the score tile of the
  query and key blocks, whatever the case. The output buffer ends with the covering store of the accumulation; what it
  accumulates onto is the buffer as the body found it (a point that continues a row block: `xo`), or the reset value the
  body has just stored and read back (the first point of a row block).
-/

noncomputable section

open Idealize.ShloMosaic Idealize.ShloMosaic.TcCoe Idealize.SL.Sem
open Cert.KernelIdeal Cert.KernelIdeal.Gen

namespace Cert.Attn.Found

variable {F : FTy → Type} [FloatOps F]

theorem hz : (![0, 0, 0] : Fin 3 → Nat) = fun _ => 0 := funext fun a => by fin_cases a <;> rfl

/-- First point of a row block: the weights buffer holds the score tile. -/
theorem weights_first (c : Dev nD) (i : grid0.Coords) (arg3 : Memref sig .tc .vmem S1x1024x1024 .bf16) (harg3 : arg3.IsWhole)
    (arg4 : Memref sig .tc .vmem S1x512x1024 .bf16) (harg4 : arg4.IsWhole) (arg5 : Memref sig .tc .vmem S1x512x1024 .bf16) (harg5 : arg5.IsWhole)
    (arg6 : Memref sig .tc .vmem S1x1024x1024 .f32) (harg6 : arg6.IsWhole) (arg7 : Memref sig .tc .vmem S1x1024x512 .f32) (harg7 : arg7.IsWhole) (hc0 : cond0_0 i)
    (x0 : Vec F S1x1024x1024 .bf16) (x1 : Vec F S1x512x1024 .bf16) (x2 : Vec F S1x512x1024 .bf16) :
    out0_A_4 c i arg3 harg3 arg4 harg4 arg5 harg5 arg6 harg6 arg7 harg7 hc0 x0 x1 x2 = k0_pay2 x0 x1 := by
  unfold out0_A_4
  rw [View.read_writes_eq_canon _ _ _ (cover0_A_4 c i arg3 harg3 arg4 harg4 arg5 harg5 arg6 harg6 arg7 harg7 hc0 x0 x1 x2)]
  unfold kernelRun0_A
  dsimp only
  sl_unfold_words
  rw [View.canon_unit_zero hz]
  simp only [View.readAt_eq_ld, harg3.read_unread, harg4.read_unread, View.ld_unit_zero (S := S1x1024x1024) hz,
    View.ld_unit_zero (S := S1x512x1024) hz]

/-- A later point of a row block: the same. -/
theorem weights_later (c : Dev nD) (i : grid0.Coords) (arg3 : Memref sig .tc .vmem S1x1024x1024 .bf16) (harg3 : arg3.IsWhole)
    (arg4 : Memref sig .tc .vmem S1x512x1024 .bf16) (harg4 : arg4.IsWhole) (arg5 : Memref sig .tc .vmem S1x512x1024 .bf16) (harg5 : arg5.IsWhole)
    (arg6 : Memref sig .tc .vmem S1x1024x1024 .f32) (harg6 : arg6.IsWhole) (arg7 : Memref sig .tc .vmem S1x1024x512 .f32) (harg7 : arg7.IsWhole) (hc0 : ¬cond0_0 i)
    (x0 : Vec F S1x1024x1024 .bf16) (x1 : Vec F S1x512x1024 .bf16) (x2 : Vec F S1x512x1024 .bf16) (xo : Vec F S1x1024x1024 .f32) :
    out0_B_4 c i arg3 harg3 arg4 harg4 arg5 harg5 arg6 harg6 arg7 harg7 hc0 x0 x1 x2 xo = k0_pay2 x0 x1 := by
  unfold out0_B_4
  rw [View.read_writes_eq_canon _ _ _ (cover0_B_4 c i arg3 harg3 arg4 harg4 arg5 harg5 arg6 harg6 arg7 harg7 hc0 x0 x1 x2 xo)]
  unfold kernelRun0_B
  dsimp only
  sl_unfold_words
  rw [View.canon_unit_zero hz]
  simp only [View.readAt_eq_ld, harg3.read_unread, harg4.read_unread, View.ld_unit_zero (S := S1x1024x1024) hz,
    View.ld_unit_zero (S := S1x512x1024) hz]

/-- First point of a row block: the output buffer holds one accumulation onto the reset value. -/
theorem output_first (c : Dev nD) (i : grid0.Coords) (arg3 : Memref sig .tc .vmem S1x1024x1024 .bf16) (harg3 : arg3.IsWhole)
    (arg4 : Memref sig .tc .vmem S1x512x1024 .bf16) (harg4 : arg4.IsWhole) (arg5 : Memref sig .tc .vmem S1x512x1024 .bf16) (harg5 : arg5.IsWhole)
    (arg6 : Memref sig .tc .vmem S1x1024x1024 .f32) (harg6 : arg6.IsWhole) (arg7 : Memref sig .tc .vmem S1x1024x512 .f32) (harg7 : arg7.IsWhole) (hc0 : cond0_0 i)
    (x0 : Vec F S1x1024x1024 .bf16) (x1 : Vec F S1x512x1024 .bf16) (x2 : Vec F S1x512x1024 .bf16) :
    out0_A_3 c i arg3 harg3 arg4 harg4 arg5 harg5 arg6 harg6 arg7 harg7 hc0 x0 x1 x2 = k0_pay4 x0 x1 x2 k0_pay3 := by
  unfold out0_A_3
  rw [View.read_writes_eq_canon _ _ _ (cover0_A_3 c i arg3 harg3 arg4 harg4 arg5 harg5 arg6 harg6 arg7 harg7 hc0 x0 x1 x2)]
  unfold kernelRun0_A
  dsimp only
  sl_unfold_words
  rw [View.canon_cons_unit_zero (S := S1x1024x1024) hz, View.readCov_unit_zero (S := S1x1024x1024) _ hz]
  simp only [View.readAt_eq_ld, harg3.read_unread, harg4.read_unread, harg5.read_unread,
    View.ld_unit_zero (S := S1x1024x1024) hz, View.ld_unit_zero (S := S1x512x1024) hz]

/-- A later point: one accumulation onto what the buffer held. -/
theorem output_later (c : Dev nD) (i : grid0.Coords) (arg3 : Memref sig .tc .vmem S1x1024x1024 .bf16) (harg3 : arg3.IsWhole)
    (arg4 : Memref sig .tc .vmem S1x512x1024 .bf16) (harg4 : arg4.IsWhole) (arg5 : Memref sig .tc .vmem S1x512x1024 .bf16) (harg5 : arg5.IsWhole)
    (arg6 : Memref sig .tc .vmem S1x1024x1024 .f32) (harg6 : arg6.IsWhole) (arg7 : Memref sig .tc .vmem S1x1024x512 .f32) (harg7 : arg7.IsWhole) (hc0 : ¬cond0_0 i)
    (x0 : Vec F S1x1024x1024 .bf16) (x1 : Vec F S1x512x1024 .bf16) (x2 : Vec F S1x512x1024 .bf16) (xo : Vec F S1x1024x1024 .f32) :
    out0_B_3 c i arg3 harg3 arg4 harg4 arg5 harg5 arg6 harg6 arg7 harg7 hc0 x0 x1 x2 xo = k0_pay4 x0 x1 x2 xo := by
  unfold out0_B_3
  rw [View.read_writes_eq_canon _ _ _ (cover0_B_3 c i arg3 harg3 arg4 harg4 arg5 harg5 arg6 harg6 arg7 harg7 hc0 x0 x1 x2 xo)]
  unfold kernelRun0_B
  dsimp only
  sl_unfold_words
  rw [View.canon_unit_zero hz]
  simp only [View.readAt_eq_ld, harg3.read_unread, harg4.read_unread, harg5.read_unread, harg6.read_unread,
    View.ld_unit_zero (S := S1x1024x1024) hz, View.ld_unit_zero (S := S1x512x1024) hz]

end Cert.Attn.Found

end
-- ==== Proof.Payload.lean ====
import proofs.«142476_j69080253989708_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

/-!
  The kernel body's arithmetic at one grid point, read entry by entry over the extended reals.

  With `q` the [1024, 1024] block of normalized query rows, `k` the [512, 1024] block of normalized key rows and
  `x` the [512, 1024] block of the third input's rows (each behind a leading unit axis):

    the score tile        (i, j) ↦ ∑ d < 1024, q (i, d) · k (j, d)                       (`tile_apply`)
    what is stored as the weights block is that tile                                       (`weightsStore_apply`)
    the reset value is 0                                                                   (`reset_apply`)
    the accumulated block (i, e) ↦ acc (i, e) + ∑ j < 512, tile (i, j) · x (j, e)          (`accumulate_apply`)

  The changes of float format in the body are the identity here, and a matrix product into a zero accumulator is the
  plain sum of products over the contracted axis.
-/

noncomputable section

open Idealize.ShloMosaic Idealize.ShloMosaic.ValueIdx
open Cert.KernelIdeal Cert.KernelIdeal.Gen

namespace Cert.Attn.Body

/-! ## The two matrix products' operand indices

  Both products contract the left operand's axis 1 with the right operand's axis 0 and have no batch axis: at output
  index (r, c) and contraction index `z` the left operand is read at (r, z) and the right one at (z, c). -/

theorem tileDot_lhs0 (o : S1024x512.Idx) (z : dot_S1024x1024_S1024x512_S1024x512_1_0_0_1_n_n.contr.Idx) :
    (dot_S1024x1024_S1024x512_S1024x512_1_0_0_1_n_n.lhsIdx o z 0).val = (o 0).val := by
  unfold DotDims.lhsIdx
  rw [dif_neg (show ¬(0 : Fin S1024x1024.rank) ∈ dot_S1024x1024_S1024x512_S1024x512_1_0_0_1_n_n.lhsBatch by decide),
    dif_pos (show (0 : Fin S1024x1024.rank) ∈ dot_S1024x1024_S1024x512_S1024x512_1_0_0_1_n_n.lhsNonContracting by decide)]
  rfl
theorem tileDot_lhs1 (o : S1024x512.Idx) (z : dot_S1024x1024_S1024x512_S1024x512_1_0_0_1_n_n.contr.Idx) :
    (dot_S1024x1024_S1024x512_S1024x512_1_0_0_1_n_n.lhsIdx o z 1).val = (z ⟨0, by decide⟩).val :=
  dot_S1024x1024_S1024x512_S1024x512_1_0_0_1_n_n.lhsIdx_val_of_single rfl o z
theorem tileDot_rhs0 (o : S1024x512.Idx) (z : dot_S1024x1024_S1024x512_S1024x512_1_0_0_1_n_n.contr.Idx) :
    (dot_S1024x1024_S1024x512_S1024x512_1_0_0_1_n_n.rhsIdx o z 0).val = (z ⟨0, by decide⟩).val :=
  dot_S1024x1024_S1024x512_S1024x512_1_0_0_1_n_n.rhsIdx_val_of_single rfl o z
theorem tileDot_rhs1 (o : S1024x512.Idx) (z : dot_S1024x1024_S1024x512_S1024x512_1_0_0_1_n_n.contr.Idx) :
    (dot_S1024x1024_S1024x512_S1024x512_1_0_0_1_n_n.rhsIdx o z 1).val = (o 1).val := by
  unfold DotDims.rhsIdx
  rw [dif_neg (show ¬(1 : Fin S1024x512.rank) ∈ dot_S1024x1024_S1024x512_S1024x512_1_0_0_1_n_n.rhsBatch by decide),
    dif_pos (show (1 : Fin S1024x512.rank) ∈ dot_S1024x1024_S1024x512_S1024x512_1_0_0_1_n_n.rhsNonContracting by decide)]
  rfl

theorem mixDot_lhs0 (o : S1024x1024.Idx) (z : dot_S1024x512_S512x1024_S1024x1024_1_0_0_1_n_n.contr.Idx) :
    (dot_S1024x512_S512x1024_S1024x1024_1_0_0_1_n_n.lhsIdx o z 0).val = (o 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl
theorem mixDot_lhs1 (o : S1024x1024.Idx) (z : dot_S1024x512_S512x1024_S1024x1024_1_0_0_1_n_n.contr.Idx) :
    (dot_S1024x512_S512x1024_S1024x1024_1_0_0_1_n_n.lhsIdx o z 1).val = (z ⟨0, by decide⟩).val :=
  dot_S1024x512_S512x1024_S1024x1024_1_0_0_1_n_n.lhsIdx_val_of_single rfl o z
theorem mixDot_rhs0 (o : S1024x1024.Idx) (z : dot_S1024x512_S512x1024_S1024x1024_1_0_0_1_n_n.contr.Idx) :
    (dot_S1024x512_S512x1024_S1024x1024_1_0_0_1_n_n.rhsIdx o z 0).val = (z ⟨0, by decide⟩).val :=
  dot_S1024x512_S512x1024_S1024x1024_1_0_0_1_n_n.rhsIdx_val_of_single rfl o z
theorem mixDot_rhs1 (o : S1024x1024.Idx) (z : dot_S1024x512_S512x1024_S1024x1024_1_0_0_1_n_n.contr.Idx) :
    (dot_S1024x512_S512x1024_S1024x1024_1_0_0_1_n_n.rhsIdx o z 1).val = (o 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

/-- The score tile of a query block and a key block: row `i` of the queries against row `j` of the keys. -/
theorem tile_apply (q : Vec Ideal S1x1024x1024 .bf16) (k : Vec Ideal S1x512x1024 .bf16) (i : Fin 1024) (j : Fin 512) :
    k0_pay1 q k (ix2 i j) = ∑ d : Fin 1024, q (ix3 (0 : Fin 1) i d) * k (ix3 (0 : Fin 1) j d) := by
  show FloatOps.matmul dot_S1024x1024_S1024x512_S1024x512_1_0_0_1_n_n none
      (shapeCast S1024x1024 q shapeCasts_S1x1024x1024_S1024x1024 : FVec Ideal S1024x1024 .bf16)
      (transpose S1024x512 [1, 0] (shapeCast S512x1024 k shapeCasts_S1x512x1024_S512x1024 : FVec Ideal S512x1024 .bf16)
        transposes_S512x1024_p1_0_S1024x512 : FVec Ideal S1024x512 .bf16)
      (constant S1024x512 .f32 0x00000000#32) (ix2 i j) = _
  rw [Ideal.matmul_constant_zero_apply,
    ← Equiv.sum_comp (contrEquiv1 dot_S1024x1024_S1024x512_S1024x512_1_0_0_1_n_n 1024 rfl rfl).symm]
  refine Finset.sum_congr rfl fun d _ => ?_
  have hd := contrEquiv1_symm_val dot_S1024x1024_S1024x512_S1024x512_1_0_0_1_n_n 1024 rfl rfl d
  have el : dot_S1024x1024_S1024x512_S1024x512_1_0_0_1_n_n.lhsIdx (ix2 i j)
      ((contrEquiv1 dot_S1024x1024_S1024x512_S1024x512_1_0_0_1_n_n 1024 rfl rfl).symm d) = ix2 i d :=
    funext fun a => Fin.ext (by
      match a with
      | ⟨0, _⟩ => exact tileDot_lhs0 _ _
      | ⟨1, _⟩ => exact (tileDot_lhs1 _ _).trans hd)
  have er : dot_S1024x1024_S1024x512_S1024x512_1_0_0_1_n_n.rhsIdx (ix2 i j)
      ((contrEquiv1 dot_S1024x1024_S1024x512_S1024x512_1_0_0_1_n_n 1024 rfl rfl).symm d) = ix2 d j :=
    funext fun a => Fin.ext (by
      match a with
      | ⟨0, _⟩ => exact (tileDot_rhs0 _ _).trans hd
      | ⟨1, _⟩ => exact tileDot_rhs1 _ _)
  rw [el, er, shapeCast_1ab_ab_apply, transpose_ix2_apply, shapeCast_1ab_ab_apply]

/-- The weights block the body stores is the score tile behind a unit axis. -/
theorem weightsStore_apply (q : Vec Ideal S1x1024x1024 .bf16) (k : Vec Ideal S1x512x1024 .bf16) (u : Fin 1)
    (i : Fin 1024) (j : Fin 512) : k0_pay2 q k (ix3 u i j) = k0_pay1 q k (ix2 i j) := by
  show (shapeCast S1x1024x512 (k0_pay1 q k) shapeCasts_S1024x512_S1x1024x512 : FVec Ideal S1x1024x512 .f32) (ix3 u i j) = _
  rw [shapeCast_ab_1ab_apply]

/-- The value the output block is reset to is zero. -/
theorem reset_apply (y : S1x1024x1024.Idx) : k0_pay3 (F := Ideal) y = 0 := by
  show (shapeCast S1x1024x1024 (broadcast S1024x1024 (Scalar.ofBits (F := Ideal) .f32 0x00000000#32) : FVec Ideal S1024x1024 .f32)
      shapeCasts_S1024x1024_S1x1024x1024 : FVec Ideal S1x1024x1024 .f32) y = _
  unfold shapeCast
  exact Ideal.ofBits_zero_f32

/-- One accumulation: the block as it was, plus the score tile applied to the block of the third input. -/
theorem accumulate_apply (q : Vec Ideal S1x1024x1024 .bf16) (k : Vec Ideal S1x512x1024 .bf16)
    (x : Vec Ideal S1x512x1024 .bf16) (acc : Vec Ideal S1x1024x1024 .f32) (u : Fin 1) (i : Fin 1024) (e : Fin 1024) :
    k0_pay4 q k x acc (ix3 u i e)
      = acc (ix3 (0 : Fin 1) i e) + ∑ j : Fin 512, k0_pay1 q k (ix2 i j) * x (ix3 (0 : Fin 1) j e) := by
  show (shapeCast S1x1024x1024
      (addf (shapeCast S1024x1024 acc shapeCasts_S1x1024x1024_S1024x1024 : FVec Ideal S1024x1024 .f32)
        (matmul dot_S1024x512_S512x1024_S1024x1024_1_0_0_1_n_n none
          (truncf .bf16 (k0_pay1 q k) bitsLt_bf16_f32 : FVec Ideal S1024x512 .bf16)
          (shapeCast S512x1024 x shapeCasts_S1x512x1024_S512x1024 : FVec Ideal S512x1024 .bf16)
          (constant S1024x1024 .f32 0x00000000#32)) : FVec Ideal S1024x1024 .f32)
      shapeCasts_S1024x1024_S1x1024x1024 : FVec Ideal S1x1024x1024 .f32) (ix3 u i e) = _
  rw [shapeCast_ab_1ab_apply]
  show (shapeCast S1024x1024 acc shapeCasts_S1x1024x1024_S1024x1024 : FVec Ideal S1024x1024 .f32) (ix2 i e)
      + FloatOps.matmul dot_S1024x512_S512x1024_S1024x1024_1_0_0_1_n_n none
          (truncf .bf16 (k0_pay1 q k) bitsLt_bf16_f32 : FVec Ideal S1024x512 .bf16)
          (shapeCast S512x1024 x shapeCasts_S1x512x1024_S512x1024 : FVec Ideal S512x1024 .bf16)
          (constant S1024x1024 .f32 0x00000000#32) (ix2 i e) = _
  rw [shapeCast_1ab_ab_apply, Ideal.matmul_constant_zero_apply,
    ← Equiv.sum_comp (contrEquiv1 dot_S1024x512_S512x1024_S1024x1024_1_0_0_1_n_n 512 rfl rfl).symm]
  refine congrArg (_ + ·) (Finset.sum_congr rfl fun j _ => ?_)
  have hj := contrEquiv1_symm_val dot_S1024x512_S512x1024_S1024x1024_1_0_0_1_n_n 512 rfl rfl j
  have el : dot_S1024x512_S512x1024_S1024x1024_1_0_0_1_n_n.lhsIdx (ix2 i e)
      ((contrEquiv1 dot_S1024x512_S512x1024_S1024x1024_1_0_0_1_n_n 512 rfl rfl).symm j) = ix2 i j :=
    funext fun a => Fin.ext (by
      match a with
      | ⟨0, _⟩ => exact mixDot_lhs0 _ _
      | ⟨1, _⟩ => exact (mixDot_lhs1 _ _).trans hj)
  have er : dot_S1024x512_S512x1024_S1024x1024_1_0_0_1_n_n.rhsIdx (ix2 i e)
      ((contrEquiv1 dot_S1024x512_S512x1024_S1024x1024_1_0_0_1_n_n 512 rfl rfl).symm j) = ix2 j e :=
    funext fun a => Fin.ext (by
      match a with
      | ⟨0, _⟩ => exact (mixDot_rhs0 _ _).trans hj
      | ⟨1, _⟩ => exact mixDot_rhs1 _ _)
  rw [el, er, shapeCast_1ab_ab_apply]
  rfl

end Cert.Attn.Body

end
-- ==== Proof.BlockSum.lean ====
import Mathlib.Algebra.BigOperators.Fin

/-!
  A finite sum taken a block of consecutive terms at a time.

  For `f : Fin N → M` into a commutative additive monoid, `headSum f n` is the sum of the first `n` terms of `f`
  (terms past `N` count as zero). Adding the next `b` consecutive terms to `headSum f n` gives `headSum f (n + b)`
  (`headSum_add`), nothing has been summed at `n = 0` (`headSum_zero`), and at `n = N` everything has
  (`headSum_all`). Only associativity and commutativity of `+` are used, so the law holds in the extended reals,
  infinities included.
-/

open Finset

namespace Cert.Attn

variable {M : Type*} [AddCommMonoid M] {N : ℕ}

/-- `f` read at a natural number: its value inside `[0, N)`, zero beyond. -/
def ext0 (f : Fin N → M) (k : ℕ) : M := if h : k < N then f ⟨k, h⟩ else 0

theorem ext0_of_lt (f : Fin N → M) {k : ℕ} (h : k < N) : ext0 f k = f ⟨k, h⟩ := dif_pos h

/-- The sum of the first `n` terms of `f`. -/
def headSum (f : Fin N → M) (n : ℕ) : M := ∑ k ∈ range n, ext0 f k

/-- Before any term: zero. -/
theorem headSum_zero (f : Fin N → M) : headSum f 0 = 0 := by
  unfold headSum
  rw [range_zero, sum_empty]

/-- The next `b` consecutive terms, added to the first `n`, make the first `n + b`. -/
theorem headSum_add (f : Fin N → M) (n b : ℕ) (h : n + b ≤ N) :
    headSum f (n + b)
      = headSum f n + ∑ j : Fin b, f ⟨n + j.val, Nat.lt_of_lt_of_le (Nat.add_lt_add_left j.isLt n) h⟩ := by
  unfold headSum
  rw [sum_range_add, Finset.sum_range fun x => ext0 f (n + x)]
  refine congrArg (_ + ·) (Finset.sum_congr rfl fun j _ => ?_)
  exact ext0_of_lt f _

/-- All `N` terms: the whole sum. -/
theorem headSum_all (f : Fin N → M) : headSum f N = ∑ k : Fin N, f k := by
  unfold headSum
  rw [Finset.sum_range]
  exact Finset.sum_congr rfl fun k _ => ext0_of_lt f k.isLt

end Cert.Attn
-- ==== Proof.Spec.lean ====
import Idealize.ShloMosaic.PureOps.Ideal
import Idealize.ShloMosaic.Lib.ValueIdx
import proofs.«142476_j69080253989708_2_alg».proof.Proof.BlockSum

/-!
  What both programs compute, index by index, over the extended reals.

  From three arrays `Q`, `K`, `X` of shape [batch 4, position 4096, feature 1024] (the two normalized inputs and the
  third input):

    scores Q K (b, n, p)  = ∑ d < 1024, Q (b, n, d) · K (b, p, d)                 -- [4, 4096, 4096]
    mix W X (b, n, e)     = ∑ p < 4096, W (b, n, p) · X (b, p, e)                 -- [4, 4096, 1024]

  `mixHead W X b n e k` is the sum of the first `k` products of `mix` at (b, n, e): the running value of an output
  entry while the positions `p` are visited 512 at a time.
-/

noncomputable section

open Idealize.ShloMosaic Idealize.ShloMosaic.ValueIdx

namespace Cert.Attn

/-- Arrays indexed [batch, position, feature]. -/
abbrev Seq := (⟨3, ![4, 4096, 1024]⟩ : Shape).Idx → EReal
/-- Arrays indexed [batch, position, position]. -/
abbrev Pair := (⟨3, ![4, 4096, 4096]⟩ : Shape).Idx → EReal

/-- Row `n` of `Q` against row `p` of `K`, in batch `b`. -/
def scores (Q K : Seq) : Pair := fun i =>
  ∑ d : Fin 1024, Q (ix3 (i 0 : Fin 4) (i 1 : Fin 4096) d) * K (ix3 (i 0 : Fin 4) (i 2 : Fin 4096) d)

/-- The product position `p` contributes to the output entry (b, n, e). -/
def mixTerm (W : Pair) (X : Seq) (b : Fin 4) (n : Fin 4096) (e : Fin 1024) (p : Fin 4096) : EReal :=
  W (ix3 b n p) * X (ix3 b p e)

/-- The weights applied to `X`: every position's product summed. -/
def mix (W : Pair) (X : Seq) : Seq := fun i =>
  ∑ p : Fin 4096, mixTerm W X (i 0 : Fin 4) (i 1 : Fin 4096) (i 2 : Fin 1024) p

/-- The first `k` positions' products summed. -/
def mixHead (W : Pair) (X : Seq) (b : Fin 4) (n : Fin 4096) (e : Fin 1024) (k : ℕ) : EReal :=
  headSum (mixTerm W X b n e) k

theorem mixHead_zero (W : Pair) (X : Seq) (b : Fin 4) (n : Fin 4096) (e : Fin 1024) : mixHead W X b n e 0 = 0 :=
  headSum_zero _

/-- A block of 512 further positions extends the running sum. -/
theorem mixHead_block (W : Pair) (X : Seq) (b : Fin 4) (n : Fin 4096) (e : Fin 1024) (k : ℕ) (h : k + 512 ≤ 4096) :
    mixHead W X b n e (k + 512)
      = mixHead W X b n e k
        + ∑ j : Fin 512, mixTerm W X b n e ⟨k + j.val, Nat.lt_of_lt_of_le (Nat.add_lt_add_left j.isLt k) h⟩ :=
  headSum_add _ k 512 h

/-- After all 4096 positions the running sum is the output entry. -/
theorem mixHead_all (W : Pair) (X : Seq) (i : (⟨3, ![4, 4096, 1024]⟩ : Shape).Idx) :
    mixHead W X (i 0 : Fin 4) (i 1 : Fin 4096) (i 2 : Fin 1024) 4096 = mix W X i :=
  headSum_all _

end Cert.Attn

end
-- ==== Proof.Point.lean ====
import proofs.«142476_j69080253989708_2_alg».proof.Proof.Payload
import proofs.«142476_j69080253989708_2_alg».proof.Proof.Spec

/-!
  One grid point's work in terms of the whole arrays.

  Suppose the query block's row `i` is row `n` of `Q` in batch `b`, and the key block and the third input's block hold
  the 512 positions from `p0` on of `K` and `X` in that batch. Then

    * the weights block's entry (i, j) is `scores Q K (b, n, p0 + j)`                       (`weights_point`);
    * accumulating onto the sum of the first `p0` products of the output entry (b, n, e) gives the sum of the first
      `p0 + 512`                                                                           (`accumulate_point`).
-/

noncomputable section

open Idealize.ShloMosaic Idealize.ShloMosaic.ValueIdx
open Cert.KernelIdeal Cert.KernelIdeal.Gen

namespace Cert.Attn.Body

/-- The score tile's entry is the scores' entry at the rows the two blocks hold. -/
theorem tile_point (Q K : Seq) (b : Fin 4) (n p : Fin 4096) (i : Fin 1024) (j : Fin 512)
    (q : Vec Ideal S1x1024x1024 .bf16) (k : Vec Ideal S1x512x1024 .bf16)
    (hq : ∀ d : Fin 1024, q (ix3 (0 : Fin 1) i d) = Q (ix3 b n d))
    (hk : ∀ d : Fin 1024, k (ix3 (0 : Fin 1) j d) = K (ix3 b p d)) :
    k0_pay1 q k (ix2 i j) = scores Q K (ix3 b n p) := by
  rw [tile_apply]
  unfold scores
  exact Finset.sum_congr rfl fun d _ => by rw [hq d, hk d]

/-- So is what the body stores as the weights block. -/
theorem weights_point (Q K : Seq) (b : Fin 4) (n p : Fin 4096) (u : Fin 1) (i : Fin 1024) (j : Fin 512)
    (q : Vec Ideal S1x1024x1024 .bf16) (k : Vec Ideal S1x512x1024 .bf16)
    (hq : ∀ d : Fin 1024, q (ix3 (0 : Fin 1) i d) = Q (ix3 b n d))
    (hk : ∀ d : Fin 1024, k (ix3 (0 : Fin 1) j d) = K (ix3 b p d)) :
    k0_pay2 q k (ix3 u i j) = scores Q K (ix3 b n p) := by
  rw [weightsStore_apply]
  exact tile_point Q K b n p i j q k hq hk

/-- One accumulation adds the products of the block's 512 positions to the running sum of the output entry. -/
theorem accumulate_point (Q K X : Seq) (b : Fin 4) (n : Fin 4096) (e : Fin 1024) (p0 : ℕ) (hp : p0 + 512 ≤ 4096)
    (u : Fin 1) (i : Fin 1024) (q : Vec Ideal S1x1024x1024 .bf16) (k x : Vec Ideal S1x512x1024 .bf16)
    (acc : Vec Ideal S1x1024x1024 .f32)
    (hq : ∀ d : Fin 1024, q (ix3 (0 : Fin 1) i d) = Q (ix3 b n d))
    (hk : ∀ (j : Fin 512) (d : Fin 1024),
      k (ix3 (0 : Fin 1) j d) = K (ix3 b ⟨p0 + j.val, Nat.lt_of_lt_of_le (Nat.add_lt_add_left j.isLt p0) hp⟩ d))
    (hx : ∀ j : Fin 512,
      x (ix3 (0 : Fin 1) j e) = X (ix3 b ⟨p0 + j.val, Nat.lt_of_lt_of_le (Nat.add_lt_add_left j.isLt p0) hp⟩ e))
    (hacc : acc (ix3 (0 : Fin 1) i e) = mixHead (scores Q K) X b n e p0) :
    k0_pay4 q k x acc (ix3 u i e) = mixHead (scores Q K) X b n e (p0 + 512) := by
  rw [accumulate_apply, hacc, mixHead_block _ _ _ _ _ p0 hp]
  refine congrArg (_ + ·) (Finset.sum_congr rfl fun j _ => ?_)
  rw [tile_point Q K b n ⟨p0 + j.val, Nat.lt_of_lt_of_le (Nat.add_lt_add_left j.isLt p0) hp⟩ i j q k hq (hk j), hx j]
  rfl

end Cert.Attn.Body

end
-- ==== Proof.Blocks.lean ====
import proofs.«142476_j69080253989708_2_alg».proof.Proof.Gen.KernelIdeal.Frame
import Idealize.ShloMosaic.Lib.Pipeline.Value
import Idealize.ShloMosaic.Lib.ValueIdx

/-!
  Where each window's block sits at a grid point.

  The grid is [batch 4, row block 4, position block 8], so point `t` (row-major) has batch `t / 32`, row block
  `t / 8 % 4` and position block `t % 8`. The query block and both output blocks follow (batch, row block); the key
  block and the third input's block follow (batch, position block); the weights block follows all three. A block's
  entry (u, r, c) is the array's entry (batch, block index · block rows + r, c) — for the weights block the column is
  position block · 512 + c.
-/

noncomputable section

open Idealize.ShloMosaic Idealize.ShloMosaic.TcCoe Idealize.SL.Sem Idealize.ShloMosaic.ValueIdx
open Cert.KernelIdeal Cert.KernelIdeal.Gen

namespace Cert.Attn.Grid

theorem lt128 (t : Fin cfg0.N) : t.val < 128 := lt_of_lt_of_eq t.isLt (show cfg0.N = 128 from N_0)

/-- The batch of point `t`. -/
def batch (t : Fin cfg0.N) : Fin 4 := ⟨t.val / 32, by have := lt128 t; omega⟩
/-- Row `i` of point `t`'s query block, as a row of the array. -/
def row (t : Fin cfg0.N) (i : Fin 1024) : Fin 4096 := ⟨t.val / 8 % 4 * 1024 + i.val, by have := i.isLt; omega⟩
/-- Position `j` of point `t`'s key block, as a position of the array. -/
def pos (t : Fin cfg0.N) (j : Fin 512) : Fin 4096 := ⟨512 * (t.val % 8) + j.val, by have := j.isLt; omega⟩

/-- The printed index maps at every point, decided over the grid. -/
theorem index_facts : ∀ t : Fin cfg0.N,
    (win0_0.index t (0 : Fin 3) = t.val / 32 ∧ win0_0.index t (1 : Fin 3) = t.val / 8 % 4 ∧ win0_0.index t (2 : Fin 3) = 0)
    ∧ (win0_1.index t (0 : Fin 3) = t.val / 32 ∧ win0_1.index t (1 : Fin 3) = t.val % 8 ∧ win0_1.index t (2 : Fin 3) = 0)
    ∧ (win0_2.index t (0 : Fin 3) = t.val / 32 ∧ win0_2.index t (1 : Fin 3) = t.val % 8 ∧ win0_2.index t (2 : Fin 3) = 0)
    ∧ (win0_3.index t (0 : Fin 3) = t.val / 32 ∧ win0_3.index t (1 : Fin 3) = t.val / 8 % 4 ∧ win0_3.index t (2 : Fin 3) = 0)
    ∧ (win0_4.index t (0 : Fin 3) = t.val / 32 ∧ win0_4.index t (1 : Fin 3) = t.val / 8 % 4 ∧ win0_4.index t (2 : Fin 3) = t.val % 8) :=
  (by decide +kernel : ∀ t : Fin grid0.N, _)

variable {F : FTy → Type} [FloatOps F]
variable (m : (ℓ : Loc nD τ sig) → Buf (Elt F) ℓ)

/-- The query block's entry. -/
theorem queryBlock_apply (c : Dev nD) (t : Fin cfg0.N) (u : Fin 1) (i : Fin 1024) (d : Fin 1024) :
    (iblk m c 0 t : Vec F S1x1024x1024 .bf16) (ix3 u i d) = V m c main_v8 (ix3 (batch t) (row t i) d) := by
  obtain ⟨⟨e0, e1, e2⟩, -⟩ := index_facts t
  unfold iblk
  rw [View.read_apply]
  show V m c main_v8 _ = V m c main_v8 _
  refine congrArg (V m c main_v8) (funext fun a => Fin.ext ?_)
  have hu : u.val = 0 := by omega
  match a with
  | ⟨0, _⟩ => show win0_0.index t (0 : Fin 3) * 1 + 1 * u.val = t.val / 32; omega
  | ⟨1, _⟩ => show win0_0.index t (1 : Fin 3) * 1024 + 1 * i.val = t.val / 8 % 4 * 1024 + i.val; omega
  | ⟨2, _⟩ => show win0_0.index t (2 : Fin 3) * 1024 + 1 * d.val = d.val; omega

/-- The key block's entry. -/
theorem keyBlock_apply (c : Dev nD) (t : Fin cfg0.N) (u : Fin 1) (j : Fin 512) (d : Fin 1024) :
    (iblk m c 1 t : Vec F S1x512x1024 .bf16) (ix3 u j d) = V m c main_v17 (ix3 (batch t) (pos t j) d) := by
  obtain ⟨-, ⟨e0, e1, e2⟩, -⟩ := index_facts t
  unfold iblk
  rw [View.read_apply]
  show V m c main_v17 _ = V m c main_v17 _
  refine congrArg (V m c main_v17) (funext fun a => Fin.ext ?_)
  have hu : u.val = 0 := by omega
  match a with
  | ⟨0, _⟩ => show win0_1.index t (0 : Fin 3) * 1 + 1 * u.val = t.val / 32; omega
  | ⟨1, _⟩ => show win0_1.index t (1 : Fin 3) * 512 + 1 * j.val = 512 * (t.val % 8) + j.val; omega
  | ⟨2, _⟩ => show win0_1.index t (2 : Fin 3) * 1024 + 1 * d.val = d.val; omega

/-- The entry of the third input's block. -/
theorem valueBlock_apply (c : Dev nD) (t : Fin cfg0.N) (u : Fin 1) (j : Fin 512) (e : Fin 1024) :
    (iblk m c 2 t : Vec F S1x512x1024 .bf16) (ix3 u j e) = V m c main_v18 (ix3 (batch t) (pos t j) e) := by
  obtain ⟨-, -, ⟨e0, e1, e2⟩, -⟩ := index_facts t
  unfold iblk
  rw [View.read_apply]
  show V m c main_v18 _ = V m c main_v18 _
  refine congrArg (V m c main_v18) (funext fun a => Fin.ext ?_)
  have hu : u.val = 0 := by omega
  match a with
  | ⟨0, _⟩ => show win0_2.index t (0 : Fin 3) * 1 + 1 * u.val = t.val / 32; omega
  | ⟨1, _⟩ => show win0_2.index t (1 : Fin 3) * 512 + 1 * j.val = 512 * (t.val % 8) + j.val; omega
  | ⟨2, _⟩ => show win0_2.index t (2 : Fin 3) * 1024 + 1 * e.val = e.val; omega

end Cert.Attn.Grid

end
-- ==== Proof.KernelValue.lean ====
import proofs.«142476_j69080253989708_2_alg».proof.Proof.Gen.KernelIdeal.Value
import proofs.«142476_j69080253989708_2_alg».proof.Proof.Found
import proofs.«142476_j69080253989708_2_alg».proof.Proof.Point
import proofs.«142476_j69080253989708_2_alg».proof.Proof.Blocks

/-!
  What the kernel's two result arrays hold after the run, as functions of the three arrays its region reads.

  Write `Q`, `K`, `X` for those arrays (the normalized first and second inputs and the third input, as the host
  operations before the region leave them). Point `t` of the grid has a batch, a row block and a position block.

  * The weights block is written back at every point, and at point `t` it holds `scores Q K` on the point's rows
    and positions (`weights_at`); the 128 blocks tile the [4, 4096, 4096] array, so the array ends at `scores Q K`.
  * The output block stays in its buffer while the position block runs 0 … 7. After position block `k` it holds, at
    every entry, the sum of the first `512·(k + 1)` products of `mix (scores Q K) X` (`output_at`, by induction on
    the point: position block 0 starts from the reset value 0, a later one continues from what the point before
    left). It is written back after position block 7, when all 4096 products are in: the [4, 4096, 1024] array ends
    at `mix (scores Q K) X`.
-/

noncomputable section

open Idealize.ShloMosaic Idealize.ShloMosaic.TcCoe Idealize.SL.Sem Idealize.ShloMosaic.ValueIdx
open Idealize.ShloMosaic.Pipeline (Dat)
open Cert.KernelIdeal Cert.KernelIdeal.Gen Cert.Attn.Grid Cert.Attn.Body

namespace Cert.Attn.Kernel

variable (m : (ℓ : Loc nD τ sig) → Buf (Elt Ideal) ℓ) (ρ : Dev nD → PrngReg)

/-- The normalized first input, as the region finds it. -/
abbrev Qn (c : Dev nD) : Seq := V m c main_v8
/-- The normalized second input, as the region finds it. -/
abbrev Kn (c : Dev nD) : Seq := V m c main_v17
/-- The third input, as the region finds it. -/
abbrev Xn (c : Dev nD) : Seq := V m c main_v18

/-! ## The weights -/

/-- After the body at point `t` the weights buffer holds the scores of the point's rows and positions. -/
theorem weights_at (c : Dev nD) (t : Fin cfg0.N) (u : Fin 1) (i : Fin 1024) (j : Fin 512) :
    (outsAt0 m c t.val t.isLt).2 (ix3 u i j) = scores (Qn m c) (Kn m c) (ix3 (batch t) (row t i) (pos t j)) := by
  by_cases h0 : t.val % 8 = 0
  · rw [outsAt0_A m c t h0]
    dsimp only
    refine (congrFun (Found.weights_first c (grid0.coords t) (ms0_0 t) (hs0_0 t) (ms0_1 t) (hs0_1 t) (ms0_2 t) (hs0_2 t) (ms0_3 t) (hs0_3 t) (ms0_4 t) (hs0_4 t) ((hcond0_0 t).mpr h0)
      (iblk m c 0 t) (iblk m c 1 t) (iblk m c 2 t)) (ix3 u i j)).trans ?_
    exact weights_point (Qn m c) (Kn m c) (batch t) (row t i) (pos t j) u i j (iblk m c 0 t) (iblk m c 1 t)
      (fun d => queryBlock_apply m c t 0 i d) (fun d => keyBlock_apply m c t 0 j d)
  · rw [outsAt0_B m c t h0]
    dsimp only
    refine (congrFun (Found.weights_later c (grid0.coords t) (ms0_0 t) (hs0_0 t) (ms0_1 t) (hs0_1 t) (ms0_2 t) (hs0_2 t) (ms0_3 t) (hs0_3 t) (ms0_4 t) (hs0_4 t) (fun h => h0 ((hcond0_0 t).mp h))
      (iblk m c 0 t) (iblk m c 1 t) (iblk m c 2 t)
      (outsAt0 m c (t.val - 1) (Nat.lt_of_le_of_lt (Nat.sub_le _ _) t.isLt)).1) (ix3 u i j)).trans ?_
    exact weights_point (Qn m c) (Kn m c) (batch t) (row t i) (pos t j) u i j (iblk m c 0 t) (iblk m c 1 t)
      (fun d => queryBlock_apply m c t 0 i d) (fun d => keyBlock_apply m c t 0 j d)

/-- An index of the weights array is in point `t`'s block iff each coordinate is in the block's range on its axis. -/
theorem weights_mem (t : Fin cfg0.N) (i : S4x4096x4096.Idx) :
    i ∈ ((cfg0.win 4).blk t).view.set ↔ ∀ a : Fin 3, win0_4.index t a * S1x1024x512.size a ≤ (i a).val
      ∧ (i a).val < win0_4.index t a * S1x1024x512.size a + S1x1024x512.size a := by
  show i ∈ ((View.whole main_v19_1).slice (win0_4.rect t)).set ↔ _
  rw [View.set_slice_whole, Rect.mem_set_unit]
  exact Iff.rfl

/-- What point `t` writes back is block `t` of the scores. -/
theorem weights_flushed (c : Dev nD) (t : Fin cfg0.N) (hf : (cfg0.win 4).flush t = true) :
    (dats m 0 c).flushed 4 t = ((cfg0.win 4).blk t).view.read (Elt Ideal) (scores (Qn m c) (Kn m c)) := by
  obtain ⟨-, -, -, -, ⟨e0, e1, e2⟩⟩ := index_facts t
  rw [Value.flushed4]
  funext y
  obtain ⟨u, i, j, rfl⟩ : ∃ (u : Fin 1) (i : Fin 1024) (j : Fin 512), y = ix3 u i j := ⟨y 0, y 1, y 2, eq_ix3 y⟩
  show (outsAt0 m c t.val t.isLt).2 (ix3 u i j)
    = scores (Qn m c) (Kn m c) (((cfg0.win 4).blk t).view.emb (ix3 u i j))
  rw [weights_at m c t u i j]
  refine congrArg (scores (Qn m c) (Kn m c)) (funext fun a => Fin.ext ?_)
  have hu : u.val = 0 := by omega
  match a with
  | ⟨0, _⟩ => show t.val / 32 = win0_4.index t (0 : Fin 3) * 1 + 1 * u.val; omega
  | ⟨1, _⟩ => show t.val / 8 % 4 * 1024 + i.val = win0_4.index t (1 : Fin 3) * 1024 + 1 * i.val; omega
  | ⟨2, _⟩ => show 512 * (t.val % 8) + j.val = win0_4.index t (2 : Fin 3) * 512 + 1 * j.val; omega

/-- Every index of the weights array is in some point's block: batch, row / 1024, position / 512. -/
theorem weights_cover (i : S4x4096x4096.Idx) :
    ∃ t : Fin cfg0.N, (cfg0.win 4).flush t = true ∧ i ∈ ((cfg0.win 4).blk t).view.set := by
  have h0 : (i 0).val < 4 := (i 0).isLt
  have h1 : (i 1).val < 4096 := (i 1).isLt
  have h2 : (i 2).val < 4096 := (i 2).isLt
  obtain ⟨tv, htv⟩ : ∃ tv : ℕ, tv = (i 0).val * 32 + (i 1).val / 1024 * 8 + (i 2).val / 512 := ⟨_, rfl⟩
  have ht : tv < cfg0.N := by rw [show cfg0.N = 128 from N_0]; omega
  refine ⟨⟨tv, ht⟩, flush0_4 _, ?_⟩
  obtain ⟨-, -, -, -, ⟨e0, e1, e2⟩⟩ := index_facts ⟨tv, ht⟩
  have e0' : win0_4.index ⟨tv, ht⟩ (0 : Fin 3) = tv / 32 := e0
  have e1' : win0_4.index ⟨tv, ht⟩ (1 : Fin 3) = tv / 8 % 4 := e1
  have e2' : win0_4.index ⟨tv, ht⟩ (2 : Fin 3) = tv % 8 := e2
  rw [weights_mem]
  intro a
  match a with
  | ⟨0, _⟩ =>
    show win0_4.index ⟨tv, ht⟩ (0 : Fin 3) * 1 ≤ (i 0).val ∧ (i 0).val < win0_4.index ⟨tv, ht⟩ (0 : Fin 3) * 1 + 1
    omega
  | ⟨1, _⟩ =>
    show win0_4.index ⟨tv, ht⟩ (1 : Fin 3) * 1024 ≤ (i 1).val ∧ (i 1).val < win0_4.index ⟨tv, ht⟩ (1 : Fin 3) * 1024 + 1024
    omega
  | ⟨2, _⟩ =>
    show win0_4.index ⟨tv, ht⟩ (2 : Fin 3) * 512 ≤ (i 2).val ∧ (i 2).val < win0_4.index ⟨tv, ht⟩ (2 : Fin 3) * 512 + 512
    omega

/-- The weights array after the run. -/
theorem weights_final (c : Dev nD) : (dats m 0 c).arrAt 4 cfg0.N = scores (Qn m c) (Kn m c) :=
  (dats m 0 c).arrAt_eq_of_cover 4 (scores (Qn m c) (Kn m c)) (weights_flushed m c) weights_cover

/-! ## The output -/

/-- One accumulation at point `t`, onto the sum of the products of the position blocks before `t`'s. -/
theorem output_step (c : Dev nD) (t : Fin cfg0.N) (u : Fin 1) (i : Fin 1024) (e : Fin 1024)
    (acc : Vec Ideal S1x1024x1024 .f32)
    (hacc : acc (ix3 (0 : Fin 1) i e)
      = mixHead (scores (Qn m c) (Kn m c)) (Xn m c) (batch t) (row t i) e (512 * (t.val % 8))) :
    k0_pay4 (iblk m c 0 t) (iblk m c 1 t) (iblk m c 2 t) acc (ix3 u i e)
      = mixHead (scores (Qn m c) (Kn m c)) (Xn m c) (batch t) (row t i) e (512 * (t.val % 8) + 512) :=
  accumulate_point (Qn m c) (Kn m c) (Xn m c) (batch t) (row t i) e (512 * (t.val % 8))
    (by have := lt128 t; omega) u i (iblk m c 0 t) (iblk m c 1 t) (iblk m c 2 t) acc
    (fun d => queryBlock_apply m c t 0 i d) (fun j d => keyBlock_apply m c t 0 j d)
    (fun j => valueBlock_apply m c t 0 j e) hacc

/-- At the first point of a row block the buffer ends with the first 512 products. -/
theorem output_first_at (c : Dev nD) (t : Fin cfg0.N) (h0 : t.val % 8 = 0) (u : Fin 1) (i : Fin 1024) (e : Fin 1024) :
    (outsAt0 m c t.val t.isLt).1 (ix3 u i e)
      = mixHead (scores (Qn m c) (Kn m c)) (Xn m c) (batch t) (row t i) e (512 * (t.val % 8) + 512) := by
  rw [outsAt0_A m c t h0]
  dsimp only
  refine (congrFun (Found.output_first c (grid0.coords t) (ms0_0 t) (hs0_0 t) (ms0_1 t) (hs0_1 t) (ms0_2 t) (hs0_2 t) (ms0_3 t) (hs0_3 t) (ms0_4 t) (hs0_4 t) ((hcond0_0 t).mpr h0)
    (iblk m c 0 t) (iblk m c 1 t) (iblk m c 2 t)) (ix3 u i e)).trans ?_
  refine output_step m c t u i e (k0_pay3 (F := Ideal)) ?_
  rw [h0]
  exact (reset_apply _).trans (mixHead_zero _ _ _ _ _).symm

/-- At a later point it ends with 512 more than the point before left. -/
theorem output_later_at (c : Dev nD) (t : Fin cfg0.N) (h0 : ¬t.val % 8 = 0) (u : Fin 1) (i : Fin 1024) (e : Fin 1024)
    (hprev : (outsAt0 m c (t.val - 1) (Nat.lt_of_le_of_lt (Nat.sub_le _ _) t.isLt)).1 (ix3 (0 : Fin 1) i e)
      = mixHead (scores (Qn m c) (Kn m c)) (Xn m c) (batch t) (row t i) e (512 * (t.val % 8))) :
    (outsAt0 m c t.val t.isLt).1 (ix3 u i e)
      = mixHead (scores (Qn m c) (Kn m c)) (Xn m c) (batch t) (row t i) e (512 * (t.val % 8) + 512) := by
  rw [outsAt0_B m c t h0]
  dsimp only
  refine (congrFun (Found.output_later c (grid0.coords t) (ms0_0 t) (hs0_0 t) (ms0_1 t) (hs0_1 t) (ms0_2 t) (hs0_2 t) (ms0_3 t) (hs0_3 t) (ms0_4 t) (hs0_4 t) (fun h => h0 ((hcond0_0 t).mp h))
    (iblk m c 0 t) (iblk m c 1 t) (iblk m c 2 t)
    (outsAt0 m c (t.val - 1) (Nat.lt_of_le_of_lt (Nat.sub_le _ _) t.isLt)).1) (ix3 u i e)).trans ?_
  exact output_step m c t u i e _ hprev

/-- After the body at point `n` the output buffer holds, at every entry, the products of the position blocks up to
    the point's own: by induction on the point. -/
theorem output_at (c : Dev nD) : ∀ (n : ℕ) (h : n < cfg0.N) (u : Fin 1) (i : Fin 1024) (e : Fin 1024),
    (outsAt0 m c n h).1 (ix3 u i e)
      = mixHead (scores (Qn m c) (Kn m c)) (Xn m c) (batch ⟨n, h⟩) (row ⟨n, h⟩ i) e (512 * (n % 8) + 512) := by
  intro n
  induction n with
  | zero => intro h u i e; exact output_first_at m c ⟨0, h⟩ rfl u i e
  | succ n ih =>
    intro h u i e
    by_cases h0 : (n + 1) % 8 = 0
    · exact output_first_at m c ⟨n + 1, h⟩ h0 u i e
    · refine output_later_at m c ⟨n + 1, h⟩ h0 u i e ?_
      have hn : n < cfg0.N := Nat.lt_of_succ_lt h
      have hprev := ih hn 0 i e
      have eb : batch ⟨n, hn⟩ = batch ⟨n + 1, h⟩ := Fin.ext (by show n / 32 = (n + 1) / 32; omega)
      have er : row ⟨n, hn⟩ i = row ⟨n + 1, h⟩ i :=
        Fin.ext (by show n / 8 % 4 * 1024 + i.val = (n + 1) / 8 % 4 * 1024 + i.val; omega)
      have ek : 512 * (n % 8) + 512 = 512 * ((n + 1) % 8) := by omega
      rw [eb, er, ek] at hprev
      exact hprev

/-- An index of the output array is in point `t`'s block iff each coordinate is in the block's range on its axis. -/
theorem output_mem (t : Fin cfg0.N) (i : S4x4096x1024.Idx) :
    i ∈ ((cfg0.win 3).blk t).view.set ↔ ∀ a : Fin 3, win0_3.index t a * S1x1024x1024.size a ≤ (i a).val
      ∧ (i a).val < win0_3.index t a * S1x1024x1024.size a + S1x1024x1024.size a := by
  show i ∈ ((View.whole main_v19_0).slice (win0_3.rect t)).set ↔ _
  rw [View.set_slice_whole, Rect.mem_set_unit]
  exact Iff.rfl

/-- What a point that writes the output back (position block 7) writes is its block of the whole result. -/
theorem output_flushed (c : Dev nD) (t : Fin cfg0.N) (hf : (cfg0.win 3).flush t = true) :
    (dats m 0 c).flushed 3 t
      = ((cfg0.win 3).blk t).view.read (Elt Ideal) (mix (scores (Qn m c) (Kn m c)) (Xn m c)) := by
  have h7 : t.val % 8 = 7 := (flush0_3 t).mp hf
  obtain ⟨-, -, -, ⟨e0, e1, e2⟩, -⟩ := index_facts t
  rw [Value.flushed3]
  funext y
  obtain ⟨u, i, e, rfl⟩ : ∃ (u : Fin 1) (i : Fin 1024) (e : Fin 1024), y = ix3 u i e := ⟨y 0, y 1, y 2, eq_ix3 y⟩
  show (outsAt0 m c t.val t.isLt).1 (ix3 u i e)
    = mix (scores (Qn m c) (Kn m c)) (Xn m c) (((cfg0.win 3).blk t).view.emb (ix3 u i e))
  rw [output_at m c t.val t.isLt u i e, h7]
  refine (mixHead_all (scores (Qn m c) (Kn m c)) (Xn m c) (ix3 (batch t) (row t i) e)).trans ?_
  refine congrArg (mix (scores (Qn m c) (Kn m c)) (Xn m c)) (funext fun a => Fin.ext ?_)
  have hu : u.val = 0 := by omega
  match a with
  | ⟨0, _⟩ => show t.val / 32 = win0_3.index t (0 : Fin 3) * 1 + 1 * u.val; omega
  | ⟨1, _⟩ => show t.val / 8 % 4 * 1024 + i.val = win0_3.index t (1 : Fin 3) * 1024 + 1 * i.val; omega
  | ⟨2, _⟩ => show e.val = win0_3.index t (2 : Fin 3) * 1024 + 1 * e.val; omega

/-- Every index of the output array is in the block of the last point of its row block. -/
theorem output_cover (i : S4x4096x1024.Idx) :
    ∃ t : Fin cfg0.N, (cfg0.win 3).flush t = true ∧ i ∈ ((cfg0.win 3).blk t).view.set := by
  have h0 : (i 0).val < 4 := (i 0).isLt
  have h1 : (i 1).val < 4096 := (i 1).isLt
  have h2 : (i 2).val < 1024 := (i 2).isLt
  obtain ⟨tv, htv⟩ : ∃ tv : ℕ, tv = (i 0).val * 32 + (i 1).val / 1024 * 8 + 7 := ⟨_, rfl⟩
  have ht : tv < cfg0.N := by rw [show cfg0.N = 128 from N_0]; omega
  refine ⟨⟨tv, ht⟩, (flush0_3 _).mpr (by show tv % 8 = 7; omega), ?_⟩
  obtain ⟨-, -, -, ⟨e0, e1, e2⟩, -⟩ := index_facts ⟨tv, ht⟩
  have e0' : win0_3.index ⟨tv, ht⟩ (0 : Fin 3) = tv / 32 := e0
  have e1' : win0_3.index ⟨tv, ht⟩ (1 : Fin 3) = tv / 8 % 4 := e1
  have e2' : win0_3.index ⟨tv, ht⟩ (2 : Fin 3) = 0 := e2
  rw [output_mem]
  intro a
  match a with
  | ⟨0, _⟩ =>
    show win0_3.index ⟨tv, ht⟩ (0 : Fin 3) * 1 ≤ (i 0).val ∧ (i 0).val < win0_3.index ⟨tv, ht⟩ (0 : Fin 3) * 1 + 1
    omega
  | ⟨1, _⟩ =>
    show win0_3.index ⟨tv, ht⟩ (1 : Fin 3) * 1024 ≤ (i 1).val ∧ (i 1).val < win0_3.index ⟨tv, ht⟩ (1 : Fin 3) * 1024 + 1024
    omega
  | ⟨2, _⟩ =>
    show win0_3.index ⟨tv, ht⟩ (2 : Fin 3) * 1024 ≤ (i 2).val ∧ (i 2).val < win0_3.index ⟨tv, ht⟩ (2 : Fin 3) * 1024 + 1024
    omega

/-- The output array after the run. -/
theorem output_final (c : Dev nD) :
    (dats m 0 c).arrAt 3 cfg0.N = mix (scores (Qn m c) (Kn m c)) (Xn m c) :=
  (dats m 0 c).arrAt_eq_of_cover 3 (mix (scores (Qn m c) (Kn m c)) (Xn m c)) (output_flushed m c) output_cover

/-! ## The run -/

/-- Every execution of the kernel's program ends with the output array at the weights applied to the third input, the
    weights array at the scores, and the three arguments unchanged. -/
theorem run : θ_run defs (onTc (τ := τ) (main (F := Ideal))) ⟨m, fun _ => 0, ρ⟩ fun r => ∀ c : Dev nD,
      r.2.mem ((c : Thread nD τ).loc main_v19_0) = mix (scores (Qn m c) (Kn m c)) (Xn m c)
      ∧ r.2.mem ((c : Thread nD τ).loc main_v19_1) = scores (Qn m c) (Kn m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (output_final m c), (h c).2.1.trans (weights_final m c), (h c).2.2⟩)
    (Cert.KernelIdeal.Value.run_blocks m ρ)

end Cert.Attn.Kernel

end
-- ==== Proof.HostPrefix.lean ====
import proofs.«142476_j69080253989708_2_alg».proof.Proof.Gen.KernelIdeal.Frame
import proofs.«142476_j69080253989708_2_alg».proof.Proof.Gen.ReferenceIdeal.Read
import proofs.«142476_j69080253989708_2_alg».proof.Proof.Spec
import Idealize.ShloMosaic.Lib.StableHlo.Run

/-!
  The three arrays the kernel's region reads, in terms of the program's arguments.

  Before the region the kernel's program normalizes its first two arguments with the very operations the reference
  applies — square, sum over the feature axis, square root, maximum with the same small constant, divide — and then
  changes the float format of all three, which is the identity over the extended reals. So the region reads the
  reference's normalized first and second inputs and the third argument itself.
-/

noncomputable section

open Idealize.ShloMosaic Idealize.ShloMosaic.TcCoe Idealize.SL.Sem
open Cert.KernelIdeal Cert.KernelIdeal.Gen

namespace Cert.Attn.Host

variable (m : (ℓ : Loc nD τ sig) → Buf (Elt Ideal) ℓ)

/-- The first window's array is the reference's normalized first input. -/
theorem query_eq (c : Dev nD) :
    (V m c main_v8 : Seq) = Cert.ReferenceIdeal.Read.val_main_v7 (F := Ideal) (m ((c : Thread nD τ).loc main_arg0)) := by
  dsimp only [Gen.V, Gen.hostOps0]
  after_results
  rfl

/-- The second window's array is the reference's normalized second input. -/
theorem key_eq (c : Dev nD) :
    (V m c main_v17 : Seq) = Cert.ReferenceIdeal.Read.val_main_v15 (F := Ideal) (m ((c : Thread nD τ).loc main_arg1)) := by
  dsimp only [Gen.V, Gen.hostOps0]
  after_results
  rfl

/-- The third window's array is the third argument. -/
theorem value_eq (c : Dev nD) : (V m c main_v18 : Seq) = m ((c : Thread nD τ).loc main_arg2) := by
  dsimp only [Gen.V, Gen.hostOps0]
  after_results
  rfl

end Cert.Attn.Host

end
-- ==== Proof.Reference.lean ====
import proofs.«142476_j69080253989708_2_alg».proof.Proof.Gen.ReferenceIdeal.Read
import proofs.«142476_j69080253989708_2_alg».proof.Proof.Spec

/-!
  The reference's two results are the specification.

  Its first contraction pairs row `n` of the normalized first input with row `p` of the normalized second input over
  the feature axis, within a batch: `scores`. Its second contracts the position axis of that result against the third
  input: `mix`. The normalized inputs are kept as the reference's own stages (`val_main_v7`, `val_main_v15`).
-/

noncomputable section

open Idealize.ShloMosaic Idealize.ShloMosaic.ValueIdx
open Cert.ReferenceIdeal Cert.ReferenceIdeal.Read

namespace Cert.Attn.Ref

/-- The reference's weights are the scores of its two normalized inputs. -/
theorem weights_eq (x0 x1 : (⟨S4x4096x1024, .f32⟩ : BufTy).Contents (Elt Ideal)) :
    val_main_v16 (F := Ideal) x0 x1 = scores (val_main_v7 (F := Ideal) x0) (val_main_v15 (F := Ideal) x1) := by
  funext i
  rw [val_main_v16_apply]
  unfold scores
  refine Finset.sum_congr rfl fun d _ => ?_
  have el : lidx_main_v16 i d = ix3 (i 0 : Fin 4) (i 1 : Fin 4096) d :=
    funext fun a => Fin.ext (by match a with | ⟨0, _⟩ => rfl | ⟨1, _⟩ => rfl | ⟨2, _⟩ => rfl)
  have er : ridx_main_v16 i d = ix3 (i 0 : Fin 4) (i 2 : Fin 4096) d :=
    funext fun a => Fin.ext (by match a with | ⟨0, _⟩ => rfl | ⟨1, _⟩ => rfl | ⟨2, _⟩ => rfl)
  rw [el, er]
  rfl

/-- The reference's output is its weights applied to the third input. -/
theorem output_eq (x0 x1 x2 : (⟨S4x4096x1024, .f32⟩ : BufTy).Contents (Elt Ideal)) :
    val_main_v17 (F := Ideal) x0 x1 x2 = mix (val_main_v16 (F := Ideal) x0 x1) x2 := by
  funext i
  rw [val_main_v17_apply]
  unfold mix mixTerm
  refine Finset.sum_congr rfl fun p _ => ?_
  have el : lidx_main_v17 i p = ix3 (i 0 : Fin 4) (i 1 : Fin 4096) p :=
    funext fun a => Fin.ext (by match a with | ⟨0, _⟩ => rfl | ⟨1, _⟩ => rfl | ⟨2, _⟩ => rfl)
  have er : ridx_main_v17 i p = ix3 (i 0 : Fin 4) p (i 2 : Fin 1024) :=
    funext fun a => Fin.ext (by match a with | ⟨0, _⟩ => rfl | ⟨1, _⟩ => rfl | ⟨2, _⟩ => rfl)
  rw [el, er]
  rfl

end Cert.Attn.Ref

end
-- ==== Proof.lean ====
/-
  Attention without a softmax, the kernel against its reference, over the extended reals.

  Both programs take three arrays of shape [batch 4, position 4096, feature 1024]. Each first divides every row of the
  first two by the larger of the row's Euclidean norm and one fixed small constant — the same host operations with the
  same constants in both programs, so the normalized arrays `Q` and `K` are one and the same pair of functions of the
  arguments (Proof/HostPrefix.lean; the kernel's changes of float format are the identity here). With `X` the third
  argument both return

      weights (b, n, p) = ∑ d < 1024, Q (b, n, d) · K (b, p, d)          = `scores Q K`
      output  (b, n, e) = ∑ p < 4096, weights (b, n, p) · X (b, p, e)    = `mix (scores Q K) X`     (Proof/Spec.lean).

  The reference computes each by one contraction (Proof/Reference.lean). The kernel walks a grid of
  [batch 4, row block 4, position block 8]: at a point it forms the [1024, 512] tile of weights of its row block and
  position block by a matrix product into a zero accumulator (Proof/Payload.lean, Proof/Point.lean), writes the tile
  back, and adds the tile applied to the position block's rows of `X` into the [1024, 1024] output block, which it
  zeroes at position block 0 and writes back after position block 7. So an output entry is accumulated as eight sums of
  512 consecutive products, from zero: the first 512·(k + 1) terms of the reference's one sum after position block `k`,
  all 4096 after the last (Proof/BlockSum.lean, Proof/KernelValue.lean). Regrouping a finite sum needs only that `+` is
  associative and commutative, which holds on the extended reals with the infinities in; no product is moved across a
  sum, so the precondition that the inputs are finite is never used.

  The three frame claims are the generated frames of the two kernel programs and the reference's run with its results
  dropped; the idealization rewrote no operation, so there is nothing to preserve.
-/
import proofs.«142476_j69080253989708_2_alg».proof.Defs
import proofs.«142476_j69080253989708_2_alg».proof.Proof.Gen.Kernel
import proofs.«142476_j69080253989708_2_alg».proof.Proof.Gen.Kernel.Skeleton
import proofs.«142476_j69080253989708_2_alg».proof.Proof.Gen.Kernel.Launch
import proofs.«142476_j69080253989708_2_alg».proof.Proof.Gen.Kernel.Points
import proofs.«142476_j69080253989708_2_alg».proof.Proof.Gen.Kernel.Frame
import proofs.«142476_j69080253989708_2_alg».proof.Proof.Gen.KernelIdeal
import proofs.«142476_j69080253989708_2_alg».proof.Proof.Gen.KernelIdeal.Skeleton
import proofs.«142476_j69080253989708_2_alg».proof.Proof.Gen.KernelIdeal.Launch
import proofs.«142476_j69080253989708_2_alg».proof.Proof.Gen.KernelIdeal.Points
import proofs.«142476_j69080253989708_2_alg».proof.Proof.Gen.KernelIdeal.Frame
import proofs.«142476_j69080253989708_2_alg».proof.Proof.Gen.ReferenceIdeal
import proofs.«142476_j69080253989708_2_alg».proof.Proof.Gen.Pre_finite_inputs
import proofs.«142476_j69080253989708_2_alg».proof.Proof.Gen.KernelIdeal.Value
import proofs.«142476_j69080253989708_2_alg».proof.Proof.Gen.ReferenceIdeal.Run
import proofs.«142476_j69080253989708_2_alg».proof.Proof.Gen.ReferenceIdeal.Read
import proofs.«142476_j69080253989708_2_alg».proof.Proof.KernelValue
import proofs.«142476_j69080253989708_2_alg».proof.Proof.HostPrefix
import proofs.«142476_j69080253989708_2_alg».proof.Proof.Reference
import Idealize.ShloMosaic.Adequacy
import Idealize.ShloMosaic.Init

noncomputable section

namespace Cert.Proof

open Idealize.ShloMosaic Idealize.SL.Sem Cert.Attn

/-- The word-level kernel runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From arguments that agree, the kernel's output and weights arrays and the reference's two results are the same
    functions `mix (scores Q K) X` and `scores Q K` of the normalized first two arguments and the third. -/
theorem algebraic : Cert.algebraic_KernelIdeal_ReferenceIdeal := by
  intro m ρ m' ρ' _ hagree
  refine ⟨fun c => mix (scores (Kernel.Qn m c) (Kernel.Kn m c)) (Kernel.Xn m c),
    fun c => scores (Kernel.Qn m c) (Kernel.Kn m c), Kernel.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v17_eq, Ref.output_eq, Ref.weights_eq, (hagree c).1, (hagree c).2.1,
      (hagree c).2.2]
    show _ = mix (scores (Kernel.Qn m c) (Kernel.Kn m c)) (Kernel.Xn m c)
    rw [show Kernel.Qn m c = _ from Host.query_eq m c, show Kernel.Kn m c = _ from Host.key_eq m c,
      show Kernel.Xn m c = _ from Host.value_eq m c]
  · rw [(h c).2.1, Cert.ReferenceIdeal.Read.val_main_v16_eq, Ref.weights_eq, (hagree c).1, (hagree c).2.1]
    show _ = scores (Kernel.Qn m c) (Kernel.Kn m c)
    rw [show Kernel.Qn m c = _ from Host.query_eq m c, show Kernel.Kn m c = _ from Host.key_eq m c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
